-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6x64x256 : Shape := ⟨3, ![6, 64, 256]⟩
abbrev S6x100000x256 : Shape := ⟨3, ![6, 100000, 256]⟩
abbrev S_ : Shape := ⟨0, ![]⟩

class Facts : Prop where
  bcast_S_S6x64x256 : S_.BroadcastsInDim S6x64x256 (![] : Fin 0 → Fin S6x64x256.rank)
  reducesTo_S6x64x256_S_d0_1_2 : S6x64x256.ReducesTo [0, 1, 2] S_
  h_S_ : 0 < S_.numel
  bcast_S_S6x100000x256 : S_.BroadcastsInDim S6x100000x256 (![] : Fin 0 → Fin S6x100000x256.rank)
  reducesTo_S6x100000x256_S_d0_1_2 : S6x100000x256.ReducesTo [0, 1, 2] S_

variable [Facts]

def fn {F : FTy → Type} [FloatOps F] (main_arg0 : FVec F S6x64x256 .f32) (main_arg1 : FVec F S6x100000x256 .f32) : IVec S_ 1 :=
  let main_v0 : FVec F S6x64x256 .f32 := Host.absf main_arg0
  let main_cst : FVec F S_ .f32 := constant S_ .f32 0x7F800000#32
  let main_v1 : FVec F S6x64x256 .f32 := broadcastInDim S6x64x256 ![] bcast_S_S6x64x256 main_cst
  let main_v2 : IVec S6x64x256 1 := cmpf .olt main_v0 main_v1
  let main_c : IVec S_ 1 := constantI S_ 1 1#1
  let main_v3 : IVec S_ 1 := (fun x v => Host.reduce IntOp.andi x v reducesTo_S6x64x256_S_d0_1_2 h_S_) main_v2 main_c
  let main_v4 : FVec F S6x100000x256 .f32 := Host.absf main_arg1
  let main_cst_0 : FVec F S_ .f32 := constant S_ .f32 0x7F800000#32
  let main_v5 : FVec F S6x100000x256 .f32 := broadcastInDim S6x100000x256 ![] bcast_S_S6x100000x256 main_cst_0
  let main_v6 : IVec S6x100000x256 1 := cmpf .olt main_v4 main_v5
  let main_c_1 : IVec S_ 1 := constantI S_ 1 1#1
  let main_v7 : IVec S_ 1 := (fun x v => Host.reduce IntOp.andi x v reducesTo_S6x100000x256_S_d0_1_2 h_S_) main_v6 main_c_1
  let main_v8 : IVec S_ 1 := andi main_v3 main_v7
  main_v8
-- ==== Kernel.lean ====
abbrev S6x64x256 : Shape := ⟨3, ![6, 64, 256]⟩
abbrev S6x100000x256 : Shape := ⟨3, ![6, 100000, 256]⟩
abbrev S6x64x100000 : Shape := ⟨3, ![6, 64, 100000]⟩
abbrev S1x64x256 : Shape := ⟨3, ![1, 64, 256]⟩
abbrev S1x12544x256 : Shape := ⟨3, ![1, 12544, 256]⟩
abbrev S1x64x12544 : Shape := ⟨3, ![1, 64, 12544]⟩
abbrev S64x256 : Shape := ⟨2, ![64, 256]⟩
abbrev S64 : Shape := ⟨1, ![64]⟩
abbrev S64x1 : Shape := ⟨2, ![64, 1]⟩
abbrev S12544x256 : Shape := ⟨2, ![12544, 256]⟩
abbrev S64x12544 : Shape := ⟨2, ![64, 12544]⟩

abbrev nBuf : Space → Nat
  | .hbm => 3
  | .vmem => 6
  | .smem => 0
  | _ => 0

abbrev bufTy : (tb : Table) → Fin (tcTables nBuf tb) → BufTy
  | .hbm, ⟨0, _⟩ => ⟨S6x64x256, .f32⟩
  | .hbm, ⟨1, _⟩ => ⟨S6x100000x256, .f32⟩
  | .hbm, ⟨2, _⟩ => ⟨S6x64x100000, .f32⟩
  | .local _ .vmem, ⟨0, _⟩ => ⟨S1x64x256, .f32⟩
  | .local _ .vmem, ⟨1, _⟩ => ⟨S1x64x256, .f32⟩
  | .local _ .vmem, ⟨2, _⟩ => ⟨S1x12544x256, .f32⟩
  | .local _ .vmem, ⟨3, _⟩ => ⟨S1x12544x256, .f32⟩
  | .local _ .vmem, ⟨4, _⟩ => ⟨S1x64x12544, .f32⟩
  | .local _ .vmem, ⟨5, _⟩ => ⟨S1x64x12544, .f32⟩
  | _, _ => ⟨S6x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x12544x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x12544 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  reduces_S64x256_S64 : S64x256.Reduces [1] S64
  shapeCasts_S64_S64x1 : S64.ShapeCasts S64x1
  broadcasts_S64x1_S64x256 : S64x1.Broadcasts S64x256
  inb_S1x12544x256_S1x12544x256_0_0_0 : ∀ a, (![0, 0, 0] : Fin 3 → Nat) a + S1x12544x256.size a ≤ S1x12544x256.size a
  h_S1x12544x256 : 0 < S1x12544x256.numel
  shapeCasts_S1x12544x256_S12544x256 : S1x12544x256.ShapeCasts S12544x256
  inb_S1x64x12544_S1x64x12544_0_0_0 : ∀ a, (![0, 0, 0] : Fin 3 → Nat) a + S1x64x12544.size a ≤ S1x64x12544.size a
  h_S1x64x12544 : 0 < S1x64x12544.numel
  shapeCasts_S1x64x12544_S64x12544 : S1x64x12544.ShapeCasts S64x12544
  shapeCasts_S64x12544_S1x64x12544 : S64x12544.ShapeCasts S1x64x12544
  dot_S64x256_S12544x256_S64x12544_1_1_0_0_n_n_wf : DotDims.WF S64x256 S12544x256 S64x12544 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x256.size a ≤ S6x64x256.size a
  hwx0_0 : ∀ i : grid0.Coords, EltTy.bits .f32 = 32 ∨ (Rect.block (s := S6x64x256) S1x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x12544x256.size a < S6x100000x256.size a
  hwx0_1 : ∀ i : grid0.Coords, EltTy.bits .f32 = 32 ∨ (Rect.unit (s := S6x100000x256) (fun a => cc0_transform_1 i a * S1x12544x256.size a) (fun a => (Pipeline.Clip.of (cc0_transform_1 i a) (S1x12544x256.size a) (S6x100000x256.size a)).extent (S1x12544x256.size a)) fun a => Pipeline.Clip.inb (Pipeline.Clip.ok_of (hstart0_1 i a))).WholeWords (EltTy.packing .f32)
  hwxs0_1 : ∀ i : grid0.Coords, EltTy.bits .f32 = 32 ∨ (Rect.unit (s := S1x12544x256) (fun _ => 0) (fun a => (Pipeline.Clip.of (cc0_transform_1 i a) (S1x12544x256.size a) (S6x100000x256.size a)).extent (S1x12544x256.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x64x12544.size a < S6x64x100000.size a
  hwx0_2 : ∀ i : grid0.Coords, EltTy.bits .f32 = 32 ∨ (Rect.unit (s := S6x64x100000) (fun a => cc0_transform_2 i a * S1x64x12544.size a) (fun a => (Pipeline.Clip.of (cc0_transform_2 i a) (S1x64x12544.size a) (S6x64x100000.size a)).extent (S1x64x12544.size a)) fun a => Pipeline.Clip.inb (Pipeline.Clip.ok_of (hstart0_2 i a))).WholeWords (EltTy.packing .f32)
  hwxs0_2 : ∀ i : grid0.Coords, EltTy.bits .f32 = 32 ∨ (Rect.unit (s := S1x64x12544) (fun _ => 0) (fun a => (Pipeline.Clip.of (cc0_transform_2 i a) (S1x64x12544.size a) (S6x64x100000.size a)).extent (S1x64x12544.size a)) fun a => (Nat.zero_add _).trans_le (Pipeline.Clip.extent_le (Pipeline.Clip.ok_of (hstart0_2 i a)))).WholeWords (EltTy.packing .f32)

variable [Facts₀]

def dot_S64x256_S12544x256_S64x12544_1_1_0_0_n_n : DotDims S64x256 S12544x256 S64x12544 where
  lhsContracting := [1]
  rhsContracting := [1]
  lhsNonContracting := [0]
  rhsNonContracting := [0]
  lhsBatch := []
  rhsBatch := []
  wf := dot_S64x256_S12544x256_S64x12544_1_1_0_0_n_n_wf

abbrev win0_0 : Pipeline.Window sig grid0 :=
  Pipeline.Window.ofSpec (Memref.whole main_arg0) S1x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S1x12544x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S1x64x12544.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S6x64x256 : Shape := ⟨3, ![6, 64, 256]⟩
abbrev S6x100000x256 : Shape := ⟨3, ![6, 100000, 256]⟩
abbrev S_ : Shape := ⟨0, ![]⟩
abbrev S6x64 : Shape := ⟨2, ![6, 64]⟩
abbrev S6x64x1 : Shape := ⟨3, ![6, 64, 1]⟩
abbrev S6x64x100000 : Shape := ⟨3, ![6, 64, 100000]⟩

abbrev nBuf : Space → Nat
  | .hbm => 13
  | .vmem => 0
  | .smem => 0
  | _ => 0

abbrev bufTy : (tb : Table) → Fin (tcTables nBuf tb) → BufTy
  | .hbm, ⟨0, _⟩ => ⟨S6x64x256, .f32⟩
  | .hbm, ⟨1, _⟩ => ⟨S6x100000x256, .f32⟩
  | .hbm, ⟨2, _⟩ => ⟨S6x64x256, .f32⟩
  | .hbm, ⟨3, _⟩ => ⟨S_, .f32⟩
  | .hbm, ⟨4, _⟩ => ⟨S6x64, .f32⟩
  | .hbm, ⟨5, _⟩ => ⟨S6x64x1, .f32⟩
  | .hbm, ⟨6, _⟩ => ⟨S6x64x1, .f32⟩
  | .hbm, ⟨7, _⟩ => ⟨S_, .f32⟩
  | .hbm, ⟨8, _⟩ => ⟨S6x64x1, .f32⟩
  | .hbm, ⟨9, _⟩ => ⟨S6x64x1, .f32⟩
  | .hbm, ⟨10, _⟩ => ⟨S6x64x256, .f32⟩
  | .hbm, ⟨11, _⟩ => ⟨S6x64x256, .f32⟩
  | .hbm, ⟨12, _⟩ => ⟨S6x64x100000, .f32⟩
  | _, _ => ⟨S6x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]

class Facts₀ : Prop where
  reducesTo_S6x64x256_S6x64_d2 : S6x64x256.ReducesTo [2] S6x64
  h_S_ : 0 < S_.numel
  bcast_S6x64_S6x64x1_0_1 : S6x64.BroadcastsInDim S6x64x1 (![0, 1] : Fin 2 → Fin S6x64x1.rank)
  bcast_S_S6x64x1 : S_.BroadcastsInDim S6x64x1 (![] : Fin 0 → Fin S6x64x1.rank)
  bcast_S6x64x1_S6x64x256_0_1_2 : S6x64x1.BroadcastsInDim S6x64x256 (![0, 1, 2] : Fin 3 → Fin S6x64x256.rank)
  dot_S6x64x256_S6x100000x256_S6x64x100000_2_2_1_1_0_0_wf : DotDims.WF S6x64x256 S6x100000x256 S6x64x100000 [2] [2] [1] [1] [0] [0]

variable [Facts₀]

def dot_S6x64x256_S6x100000x256_S6x64x100000_2_2_1_1_0_0 : DotDims S6x64x256 S6x100000x256 S6x64x100000 where
  lhsContracting := [2]
  rhsContracting := [2]
  lhsNonContracting := [1]
  rhsNonContracting := [1]
  lhsBatch := [0]
  rhsBatch := [0]
  wf := dot_S6x64x256_S6x100000x256_S6x64x100000_2_2_1_1_0_0_wf

class Facts : Prop extends Facts₀ where

variable [Facts]
-- ==== Proof.KBody.lean ====
/-
  The body of the similarity kernel on its three staging buffers.

  The body reads the whole query buffer and the whole memory buffer, computes the block of similarities — each
  query row divided by its clamped norm, against every row of the memory buffer — and writes it over the whole
  result buffer, which it also reads once without using what it read. So from buffers holding `x0`, `x1` and
  anything, it ends with the first two as they were and the third holding the stored value of `x0` and `x1`.
-/
import proofs.«112958_g3410204033328_cont_8to1_b_1400_17_alg».proof.Proof.Gen.Kernel.Launch
import proofs.«112958_g3410204033328_cont_8to1_b_1400_17_alg».proof.Proof.Gen.Kernel.Skeleton
import proofs.«112958_g3410204033328_cont_8to1_b_1400_17_alg».proof.Proof.Gen.Kernel.Points
import proofs.«112958_g3410204033328_cont_8to1_b_1400_17_alg».proof.Proof.Gen.Kernel.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The three accesses: each the whole buffer, from offset zero. -/
abbrev rq : Rect S1x64x256 := Rect.unit (s := S1x64x256) ![0, 0, 0] S1x64x256.size inb_S1x64x256_S1x64x256_0_0_0
abbrev rm : Rect S1x12544x256 := Rect.unit (s := S1x12544x256) ![0, 0, 0] S1x12544x256.size inb_S1x12544x256_S1x12544x256_0_0_0
abbrev ro : Rect S1x64x12544 := Rect.unit (s := S1x64x12544) ![0, 0, 0] S1x64x12544.size inb_S1x64x12544_S1x64x12544_0_0_0

theorem hz3 : (![0, 0, 0] : Fin 3 → Nat) = fun _ => 0 := funext fun a => by fin_cases a <;> rfl

/-- What the one store leaves in the result buffer, as the list of the body's stores. -/
def out2 (x0 : Vec F S1x64x256 .f32) (x1 : Vec F S1x12544x256 .f32) : Vec F S1x64x12544 .f32 :=
  View.canon [⟨ro, k0_pay1 (View.ld x0 rq) (View.ld x1 rm)⟩]

/-- The store covers the buffer and the loads read the buffers whole: the result buffer ends at the stored value. -/
theorem out2_eq (x0 : Vec F S1x64x256 .f32) (x1 : Vec F S1x12544x256 .f32) : out2 x0 x1 = k0_pay1 x0 x1 := by
  unfold out2
  rw [View.canon_unit_zero hz3, View.ld_unit_zero (S := S1x64x256) hz3, View.ld_unit_zero (S := S1x12544x256) hz3]

theorem cover2 (p0 : Vec F S1x64x12544 .f32) (y : S1x64x12544.Idx) :
    ∃ pc ∈ ([⟨ro, p0⟩] : List (View.Piece (Elt F) S1x64x12544 .f32)), y ∈ pc.1.set :=
  ⟨_, List.mem_singleton_self _, View.mem_set_unit_zero hz3 inb_S1x64x12544_S1x64x12544_0_0_0 y⟩

set_option maxHeartbeats 1000000 in
/-- The body on whole staging buffers: the query buffer at `x0`, the memory buffer at `x1`, the result buffer at
    anything; it ends with the result buffer at the stored value of `x0` and `x1`, the other two unchanged. -/
theorem sound_kernel (c : Dev nD) (E : Set ℕ) (i : grid0.Coords)
    (arg2 : Memref sig .tc .vmem S1x64x256 .f32) (harg2 : arg2.IsWhole)
    (arg3 : Memref sig .tc .vmem S1x12544x256 .f32) (harg3 : arg3.IsWhole)
    (arg4 : Memref sig .tc .vmem S1x64x12544 .f32) (harg4 : arg4.IsWhole)
    (x0 : Vec F S1x64x256 .f32) (x1 : Vec F S1x12544x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
                ∗ owns (c : Thread nD τ) arg4 fullShare (k0_pay1 x0 x1)) -∗ K ⟨⟩))
      ⊢ wp frame (wpE (defs₀ (F := F)) Variants.none c none) E (cc0__sims_body i arg2 harg2 arg3 harg3 arg4 harg4) K := by
  simp only [cc0__sims_body_eq_skeleton]; unfold cc0__sims_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover2 _)).trans ?_
  exact out2_eq (View.read (Elt F) arg2.view f0) (View.read (Elt F) arg3.view f1)

end Cert.Kernel.Body

end
-- ==== Proof.KFrame.lean ====
/-
  The frame of the similarity kernel: every weakly fair execution of @main terminates, nothing faults, and the
  two argument arrays end as they began.

  The kernel is one pipeline over a 6×8 grid with three windows. The query window's blocks tile its array, and its
  buffer holds the current block at every point. The memory window's last block along the long axis overhangs the
  array's end: the fetch fills the buffer's leading part with the rows inside the array and leaves the tail at
  words nothing names. The result window's last block overhangs likewise, and the body fills its buffer from both
  inputs, the unnamed tail included; the frame reads nothing of the result, so nothing is said of what the body
  leaves there.
-/
import proofs.«112958_g3410204033328_cont_8to1_b_1400_17_alg».proof.Proof.KBody
import Idealize.ShloMosaic.Lib.Pipeline.Frame

set_option maxRecDepth 16384

noncomputable section

namespace Cert.Kernel.FrameProof

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The result window is forgotten: the frame reads nothing of the result array. -/
def forgets0 : Fin 3 → Bool := fun w => w.val == 2

/-- The proof data on core `c`: the arrays as the region finds them; after the body at point `t` the query
    buffer holds the query block, the memory buffer holds the memory block on the rows inside the array and
    unnamed words past its end, and the result buffer holds unnamed words; the invariant is the class's, nothing
    is owed, every share is full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => (cfg0.win 1).fill (cfg0.grid.coords t) (Pipeline.Dat.unnamed (cfg := cfg0) ⟨1, h⟩ t) (iblk m c 1 t)
    | ⟨2, h⟩ => Pipeline.Dat.unnamed (cfg := cfg0) ⟨2, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves in the query buffer: the query block. -/
theorem after0_0 (c : Dev nD) (t : Fin cfg0.N) : (dats m 0 c).after 0 t = iblk m c 0 t := by dsimp only [dats]

/-- What the body leaves in the memory buffer: the memory block on the rows inside the array. -/
theorem after0_1 (c : Dev nD) (t : Fin cfg0.N) : (dats m 0 c).after 1 t
    = (cfg0.win 1).fill (cfg0.grid.coords t) (Pipeline.Dat.unnamed (cfg := cfg0) 1 t) (iblk m c 1 t) := rfl

/-- The query buffer holds the query block at every point, fetched there or not: the block index moves only when
    the buffer is refetched. -/
theorem before0_0 (c : Dev nD) (t : Fin cfg0.N) (d) : (dats m 0 c).before 0 t d = iblk m c 0 t :=
  before0_0_of m (dats m 0 c) (A_eq m c 0) (after0_0 m c) t d

/-- The memory buffer is fetched at every point: it holds the memory block on the rows inside the array, and past
    the array's end whatever it held, `d`. -/
theorem before0_1 (c : Dev nD) (t : Fin cfg0.N) (d) :
    (dats m 0 c).before 1 t d = (cfg0.win 1).fill (cfg0.grid.coords t) d (iblk m c 1 t) := by
  unfold Dat.before; rw [if_pos (fetch0_1 t)]
  unfold Dat.fetched Dat.blockOf iblk; rw [A_eq]

/-! ## The body obligation, at a generic point -/

/-- What the body is called with at point `t`: the query buffer at its block, the memory buffer at its block on
    the rows inside the array, the result buffer at anything; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

/-- and what it returns: the query buffer as it was, the memory buffer stated on the rows inside the array only,
    the result buffer at anything. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ X, owns (c : Thread nD τ) (st0_2 t) fullShare X))

/-- The body at any point: it reads the two input buffers and leaves them as they were, and stores over the result
    buffer; the invariant passes through unread and the core owes nothing throughout. The memory buffer's tail
    past the array's end is whatever the fetch left, before and after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, Window.cut_fill]
  iintro ⟨HΦ, Ho, ⟨%d0, H0⟩, ⟨%d1, H1⟩, ⟨%d2, H2⟩⟩
  iapply (sound_kernel c Set.univ (grid0.coords t) _ _ _ _ _ _ (iblk m c 0 t)
    ((cfg0.win 1).fill (cfg0.grid.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexists d1; iexact H1
  iexists _; iexact H2

/-- The library's body obligation, at every point. -/
theorem body_obligation (c : Dev nD) :
    BodyObligationLoose (dats (F := F) m 0 c) (defs₀ (F := F)) Variants.none () Set.univ forgets0 := fun t => by
  rw [bigSep_W0, bigSep_W0]
  exact sound_body m c t

/-! ## The run and the frame -/

set_option backward.isDefEq.respectTransparency.types false in
/-- At the compiled mesh, for any values, from any memory with zero counters: every weakly fair execution of @main
    on the TensorCores terminates, and every final state has both input arrays of the pipeline unchanged, nothing
    stated of the result array, and every other unscoped buffer at its region-entry contents. -/
theorem run_main : θ_run defs (onTc (τ := τ) (main (F := F))) (s₀ m ρ)
    (Pipeline.RDat.FramePost (cfgs 0) (fun c => (dats m 0 c).toRForget forgets0) (V m)) :=
  Pipeline.RDat.θ_run_frame cfgs (0 : Fin 1) launch0 defs₀ Variants.none (fun c => (dats m 0 c).toRForget forgets0) m ρ main
    (hbody := fun c => (body_obligation m c).toRForget) (hshare := fun c => ((dats m 0 c).toRForget forgets0).share_full fun _ => rfl)
    (howed := fun _ _ => rfl) (V := V m) (hmain := hmain m Variants.none) (hA := A_eq m) (hΦ := fun _ _ => rfl)

/-- The frame claim's post from the frame run's: an input array of the pipeline is never written, so after the run
    it holds its region-entry contents, which are the launch contents; read at both argument arrays. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(Eq.mp (congrFun ((rdat c).ArrAt_in 0 rfl _) _) ((h c).1 0)).trans ((hA c 0).trans (V_main_arg0 m c)),
     (Eq.mp (congrFun ((rdat c).ArrAt_in 1 rfl _) _) ((h c).1 1)).trans ((hA c 1).trans (V_main_arg1 m c))⟩) h

/-- THE FRAME: every weakly fair execution of @main terminates, and both argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (fun c => (dats m 0 c).toRForget forgets0) (A_eq m) (run_main m ρ)

end Cert.Kernel.FrameProof

end
-- ==== Proof.IBody.lean ====
/-
  The body of the similarity kernel on its three staging buffers.

  The body reads the whole query buffer and the whole memory buffer, computes the block of similarities — each
  query row divided by its clamped norm, against every row of the memory buffer — and writes it over the whole
  result buffer, which it also reads once without using what it read. So from buffers holding `x0`, `x1` and
  anything, it ends with the first two as they were and the third holding the stored value of `x0` and `x1`.
-/
import proofs.«112958_g3410204033328_cont_8to1_b_1400_17_alg».proof.Proof.Gen.KernelIdeal.Launch
import proofs.«112958_g3410204033328_cont_8to1_b_1400_17_alg».proof.Proof.Gen.KernelIdeal.Skeleton
import proofs.«112958_g3410204033328_cont_8to1_b_1400_17_alg».proof.Proof.Gen.KernelIdeal.Points
import proofs.«112958_g3410204033328_cont_8to1_b_1400_17_alg».proof.Proof.Gen.KernelIdeal.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The three accesses: each the whole buffer, from offset zero. -/
abbrev rq : Rect S1x64x256 := Rect.unit (s := S1x64x256) ![0, 0, 0] S1x64x256.size inb_S1x64x256_S1x64x256_0_0_0
abbrev rm : Rect S1x12544x256 := Rect.unit (s := S1x12544x256) ![0, 0, 0] S1x12544x256.size inb_S1x12544x256_S1x12544x256_0_0_0
abbrev ro : Rect S1x64x12544 := Rect.unit (s := S1x64x12544) ![0, 0, 0] S1x64x12544.size inb_S1x64x12544_S1x64x12544_0_0_0

theorem hz3 : (![0, 0, 0] : Fin 3 → Nat) = fun _ => 0 := funext fun a => by fin_cases a <;> rfl

/-- What the one store leaves in the result buffer, as the list of the body's stores. -/
def out2 (x0 : Vec F S1x64x256 .f32) (x1 : Vec F S1x12544x256 .f32) : Vec F S1x64x12544 .f32 :=
  View.canon [⟨ro, k0_pay1 (View.ld x0 rq) (View.ld x1 rm)⟩]

/-- The store covers the buffer and the loads read the buffers whole: the result buffer ends at the stored value. -/
theorem out2_eq (x0 : Vec F S1x64x256 .f32) (x1 : Vec F S1x12544x256 .f32) : out2 x0 x1 = k0_pay1 x0 x1 := by
  unfold out2
  rw [View.canon_unit_zero hz3, View.ld_unit_zero (S := S1x64x256) hz3, View.ld_unit_zero (S := S1x12544x256) hz3]

theorem cover2 (p0 : Vec F S1x64x12544 .f32) (y : S1x64x12544.Idx) :
    ∃ pc ∈ ([⟨ro, p0⟩] : List (View.Piece (Elt F) S1x64x12544 .f32)), y ∈ pc.1.set :=
  ⟨_, List.mem_singleton_self _, View.mem_set_unit_zero hz3 inb_S1x64x12544_S1x64x12544_0_0_0 y⟩

set_option maxHeartbeats 1000000 in
/-- The body on whole staging buffers: the query buffer at `x0`, the memory buffer at `x1`, the result buffer at
    anything; it ends with the result buffer at the stored value of `x0` and `x1`, the other two unchanged. -/
theorem sound_kernel (c : Dev nD) (E : Set ℕ) (i : grid0.Coords)
    (arg2 : Memref sig .tc .vmem S1x64x256 .f32) (harg2 : arg2.IsWhole)
    (arg3 : Memref sig .tc .vmem S1x12544x256 .f32) (harg3 : arg3.IsWhole)
    (arg4 : Memref sig .tc .vmem S1x64x12544 .f32) (harg4 : arg4.IsWhole)
    (x0 : Vec F S1x64x256 .f32) (x1 : Vec F S1x12544x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
                ∗ owns (c : Thread nD τ) arg4 fullShare (k0_pay1 x0 x1)) -∗ K ⟨⟩))
      ⊢ wp frame (wpE (defs₀ (F := F)) Variants.none c none) E (cc0__sims_body i arg2 harg2 arg3 harg3 arg4 harg4) K := by
  simp only [cc0__sims_body_eq_skeleton]; unfold cc0__sims_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover2 _)).trans ?_
  exact out2_eq (View.read (Elt F) arg2.view f0) (View.read (Elt F) arg3.view f1)

end Cert.KernelIdeal.Body

end
-- ==== Proof.Payload.lean ====
/-
  The kernel body's stored value, read at one element over the extended reals.
-/
import proofs.«112958_g3410204033328_cont_8to1_b_1400_17_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.PayValue

open Cert.KernelIdeal Cert.KernelIdeal.Gen Idealize.ShloMosaic Idealize.ShloMosaic.ValueIdx

/-! ## A vector as a column, and a column spread along the rows -/

/-- A vector of length `a` cast to a column `[a, 1]` reads, at `(i, u)`, the vector at `i`: the row-major position of
    `(i, u)` in `[a, 1]` is `i * 1 + 0 = i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the second axis to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The sum over the 256 features of a row -/

/-- The sum of a `[64, 256]` array along its second axis, from the zero word, is at row `r` the sum of that row's 256
    entries. -/
theorem rowSum_apply (x : FVec Ideal S64x256 .f32) (h : S64x256.Reduces [1] S64) (hφ : FKind.Formats .f32)
    (hacc : (0x00000000#32 : BitVec 32) = 0x00000000#32) (r : Fin 64) :
    multiReduction (F := Ideal) .add [1] S64 x 0x00000000#32 h hφ hacc (ix1 r) = ∑ k : Fin 256, x (ix2 r k) := by
  refine (Ideal.multiReduction_add_single x 0x00000000#32 h hφ hacc (ix1 r)).trans ?_
  refine Finset.sum_congr rfl fun k _ => congrArg x (funext fun c => Fin.ext ?_)
  match c with
  | ⟨0, _⟩ => rfl
  | ⟨1, _⟩ => rfl

/-! ## The row norm, floored by the constant, spread over the row -/

/-- The denominator the kernel divides row `r` by, at any column `k`: the square root of the row's sum of squares, or the
    constant `c` if that is larger. -/
theorem denom_apply (x : FVec Ideal S64x256 .f32) (hr : S64x256.Reduces [1] S64) (hφ : FKind.Formats .f32)
    (hacc : (0x00000000#32 : BitVec 32) = 0x00000000#32) (hc : S64.ShapeCasts S64x1) (hb : S64x1.Broadcasts S64x256)
    (c : BitVec 32) (r : Fin 64) (k : Fin 256) :
    broadcastTo S64x256
        (maximumf (sqrt (shapeCast S64x1 (multiReduction (F := Ideal) .add [1] S64 (mulf x x) 0x00000000#32 hr hφ hacc) hc))
          (broadcast S64x1 (Scalar.ofBits (F := Ideal) .f32 c))) hb (ix2 r k)
      = max (Ideal.sqrt (∑ k' : Fin 256, x (ix2 r k') * x (ix2 r k'))) (Ideal.ofBits .f32 c) := by
  refine (broadcastTo_a1_ab_apply _ hb r k).trans ?_
  refine (maximumf_apply _ _ _).trans ?_
  refine congrArg₂ max ?_ rfl
  show Ideal.sqrt (shapeCast S64x1 _ hc (ix2 r (0 : Fin 1))) = _
  refine congrArg Ideal.sqrt ?_
  refine (shapeCast_a_a1_apply _ hc r (0 : Fin 1)).trans ?_
  exact rowSum_apply (mulf x x) hr hφ hacc r

/-! ## The product of the normalised rows with the memory rows -/

/-- The operand indices of the product at output entry `i` and contraction position `q`: the left operand is read at row
    `i 0`, the right operand at row `i 1`, and both at the column that is `q`'s one coordinate. -/
theorem lhs_0 (i : S64x12544.Idx) (q : dot_S64x256_S12544x256_S64x12544_1_1_0_0_n_n.contr.Idx) : (dot_S64x256_S12544x256_S64x12544_1_1_0_0_n_n.lhsIdx i q 0).val = (i 0).val := by
  unfold DotDims.lhsIdx
  rw [dif_neg (show ¬(0 : Fin S64x256.rank) ∈ dot_S64x256_S12544x256_S64x12544_1_1_0_0_n_n.lhsBatch by decide), dif_pos (show (0 : Fin S64x256.rank) ∈ dot_S64x256_S12544x256_S64x12544_1_1_0_0_n_n.lhsNonContracting by decide)]
  rfl
theorem lhs_1 (i : S64x12544.Idx) (q : dot_S64x256_S12544x256_S64x12544_1_1_0_0_n_n.contr.Idx) : (dot_S64x256_S12544x256_S64x12544_1_1_0_0_n_n.lhsIdx i q 1).val = (q ⟨0, by decide⟩).val :=
  dot_S64x256_S12544x256_S64x12544_1_1_0_0_n_n.lhsIdx_val_of_single rfl i q
theorem rhs_0 (i : S64x12544.Idx) (q : dot_S64x256_S12544x256_S64x12544_1_1_0_0_n_n.contr.Idx) : (dot_S64x256_S12544x256_S64x12544_1_1_0_0_n_n.rhsIdx i q 0).val = (i 1).val := by
  unfold DotDims.rhsIdx
  rw [dif_neg (show ¬(0 : Fin S12544x256.rank) ∈ dot_S64x256_S12544x256_S64x12544_1_1_0_0_n_n.rhsBatch by decide), dif_pos (show (0 : Fin S12544x256.rank) ∈ dot_S64x256_S12544x256_S64x12544_1_1_0_0_n_n.rhsNonContracting by decide)]
  rfl
theorem rhs_1 (i : S64x12544.Idx) (q : dot_S64x256_S12544x256_S64x12544_1_1_0_0_n_n.contr.Idx) : (dot_S64x256_S12544x256_S64x12544_1_1_0_0_n_n.rhsIdx i q 1).val = (q ⟨0, by decide⟩).val :=
  dot_S64x256_S12544x256_S64x12544_1_1_0_0_n_n.rhsIdx_val_of_single rfl i q

/-- The matrix product into the zero accumulator contracts the second axis of both operands: entry `(r, j)` is the inner
    product of row `r` of the left operand with row `j` of the right one. -/
theorem rowsDot_apply (x : FVec Ideal S64x256 .f32) (y : FVec Ideal S12544x256 .f32) (r : Fin 64) (j : Fin 12544) :
    matmul (F := Ideal) dot_S64x256_S12544x256_S64x12544_1_1_0_0_n_n none x y (constant (F := Ideal) S64x12544 .f32 0x00000000#32) (ix2 r j)
      = ∑ k : Fin 256, x (ix2 r k) * y (ix2 j k) := by
  refine (Ideal.matmul_constant_zero_apply dot_S64x256_S12544x256_S64x12544_1_1_0_0_n_n none x y (ix2 r j)).trans ?_
  rw [← Equiv.sum_comp (ValueIdx.contrEquiv1 dot_S64x256_S12544x256_S64x12544_1_1_0_0_n_n 256 rfl rfl).symm]
  refine Finset.sum_congr rfl fun k _ => ?_
  have hk := ValueIdx.contrEquiv1_symm_val dot_S64x256_S12544x256_S64x12544_1_1_0_0_n_n 256 rfl rfl k
  have el : dot_S64x256_S12544x256_S64x12544_1_1_0_0_n_n.lhsIdx (ix2 r j) ((ValueIdx.contrEquiv1 dot_S64x256_S12544x256_S64x12544_1_1_0_0_n_n 256 rfl rfl).symm k) = ix2 r k := funext fun a => Fin.ext (by
    match a with
    | ⟨0, _⟩ => exact lhs_0 _ _
    | ⟨1, _⟩ => exact (lhs_1 _ _).trans hk)
  have er : dot_S64x256_S12544x256_S64x12544_1_1_0_0_n_n.rhsIdx (ix2 r j) ((ValueIdx.contrEquiv1 dot_S64x256_S12544x256_S64x12544_1_1_0_0_n_n 256 rfl rfl).symm k) = ix2 j k := funext fun a => Fin.ext (by
    match a with
    | ⟨0, _⟩ => exact rhs_0 _ _
    | ⟨1, _⟩ => exact (rhs_1 _ _).trans hk)
  rw [el, er]

/-! ## The stored block at an element -/

/-- Element `(0, b, j)` of the stored block: the inner product over the 256 features of the normalised query row `b`
    of the loaded query block with row `j` of the loaded memory block. -/
theorem pay_apply (v0 : Vec Ideal S1x64x256 .f32) (v10 : Vec Ideal S1x12544x256 .f32) (b : Fin 64) (j : Fin 12544) :
    k0_pay1 (F := Ideal) v0 v10 (ix3 (0 : Fin 1) b j)
      = ∑ k : Fin 256, Ideal.div (v0 (ix3 (0 : Fin 1) b k))
            (max (Ideal.sqrt (∑ k' : Fin 256, v0 (ix3 (0 : Fin 1) b k') * v0 (ix3 (0 : Fin 1) b k'))) (Ideal.ofBits .f32 0x2B8CBCCC#32))
          * v10 (ix3 (0 : Fin 1) j k) := by
  unfold k0_pay1
  refine (shapeCast_ab_1ab_apply _ _ (0 : Fin 1) b j).trans ?_
  refine (rowsDot_apply _ _ b j).trans ?_
  refine Finset.sum_congr rfl fun k _ => ?_
  have e0 : ∀ k' : Fin 256, shapeCast S64x256 v0 Facts₀.shapeCasts_S1x64x256_S64x256 (ix2 b k') = v0 (ix3 (0 : Fin 1) b k') :=
    fun k' => shapeCast_1ab_ab_apply v0 _ b k'
  refine congrArg₂ (· * ·) ?_ (shapeCast_1ab_ab_apply v10 _ j k)
  refine (divf_apply _ _ (ix2 b k)).trans ?_
  refine congrArg₂ Ideal.div (e0 k) ?_
  refine (denom_apply _ _ _ _ _ _ _ b k).trans ?_
  refine congrArg (fun s => max (Ideal.sqrt s) _) ?_
  exact Finset.sum_congr rfl fun k' _ => congrArg₂ (· * ·) (e0 k') (e0 k')

end Cert.KernelIdeal.PayValue

end
-- ==== Proof.Spec.lean ====
/-
  The function both programs compute, over the extended reals.

  For each of the six parts `a`, each of the 64 query rows `b` and each of the 100000 memory rows `n`, the result is
  the inner product over the 256 features of the query row, divided by its Euclidean norm clamped below by the
  constant 0x2B8CBCCC (about 1e-12), with the memory row:
    sim a b n = ∑ k, (x a b k / max (sqrt (∑ k', x a b k' · x a b k')) ε) · mem a n k.
  Nothing here mentions either program: the shapes are literal and the indices are built from coordinates.
-/
import Idealize.ShloMosaic.PureOps.Ideal
import Idealize.ShloMosaic.Lib.ValueIdx

noncomputable section

namespace Cert.Sims

open Idealize.ShloMosaic Idealize.ShloMosaic.ValueIdx

/-- The queries [6, 64, 256], the memory bank [6, 100000, 256], the similarities [6, 64, 100000]. -/
abbrev SX : Shape := ⟨3, ![6, 64, 256]⟩
abbrev SM : Shape := ⟨3, ![6, 100000, 256]⟩
abbrev SO : Shape := ⟨3, ![6, 64, 100000]⟩

/-- The clamped Euclidean norm of query row `(a, b)`: the square root of the sum of its squares, or the
    constant if that is larger. -/
def den (x : SX.Idx → EReal) (a : Fin 6) (b : Fin 64) : EReal :=
  max (Ideal.sqrt (∑ k : Fin 256, x (ix3 a b k) * x (ix3 a b k))) (Ideal.ofBits .f32 0x2B8CBCCC#32)

/-- The similarity of query row `(a, b)` with memory row `(a, n)`. -/
def sim (x : SX.Idx → EReal) (mem : SM.Idx → EReal) (a : Fin 6) (b : Fin 64) (n : Fin 100000) : EReal :=
  ∑ k : Fin 256, Ideal.div (x (ix3 a b k)) (den x a b) * mem (ix3 a n k)

/-- The whole result array. -/
def G (x : SX.Idx → EReal) (mem : SM.Idx → EReal) : SO.Idx → EReal :=
  fun i => sim x mem (i 0) (i 1) (i 2)

theorem G_apply (x : SX.Idx → EReal) (mem : SM.Idx → EReal) (a : Fin 6) (b : Fin 64) (n : Fin 100000) :
    G x mem (ix3 a b n) = sim x mem a b n := rfl

end Cert.Sims

end
-- ==== Proof.Blocks.lean ====
/-
  One grid point's block of the result, and how the blocks cover the result array.

  Grid point `t` is part `t / 8` and column tile `t % 8`: the body finds the part's 64 query rows, the tile's memory
  rows (12544 of them, the last tile only 12192 inside the array and anything past them), and leaves the 64 × 12544
  similarities, of which the columns inside the array are written back. Those columns depend only on memory rows inside
  the array, so what is written back is the tile of the similarity function of the two argument arrays; and the 48
  tiles cover every element of the result.
-/
import proofs.«112958_g3410204033328_cont_8to1_b_1400_17_alg».proof.Proof.Gen.KernelIdeal.Launch
import proofs.«112958_g3410204033328_cont_8to1_b_1400_17_alg».proof.Proof.Gen.KernelIdeal.Points
import proofs.«112958_g3410204033328_cont_8to1_b_1400_17_alg».proof.Proof.Gen.KernelIdeal.Frame
import proofs.«112958_g3410204033328_cont_8to1_b_1400_17_alg».proof.Proof.Payload
import proofs.«112958_g3410204033328_cont_8to1_b_1400_17_alg».proof.Proof.Spec
import Idealize.ShloMosaic.Lib.Pipeline.Value

set_option maxRecDepth 16384

noncomputable section

namespace Cert.KernelIdeal.Blocks

open Cert.KernelIdeal Cert.KernelIdeal.Gen Cert.KernelIdeal.PayValue
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## The printed index maps and cuts, decided once over the 48 points -/

/-- Point `t` is part `t / 8`, column tile `t % 8`: the query window sits at block `(t / 8, 0, 0)`, the memory window
    at `(t / 8, t % 8, 0)`, the result window at `(t / 8, 0, t % 8)`; the memory window is cut on its row axis and the
    result window on its column axis to the same extent — what is left of the 100000 rows or columns after the tiles before it, at most 12544:
    12192 in the last tile, 12544 elsewhere — and on no other axis. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = t.val % 8 ∧ win0_1.index t (2 : Fin 3) = 0
    ∧ win0_2.index t (0 : Fin 3) = t.val / 8 ∧ win0_2.index t (1 : Fin 3) = 0 ∧ win0_2.index t (2 : Fin 3) = t.val % 8
    ∧ win0_1.xsize (grid0.coords t) (0 : Fin 3) = 1
    ∧ win0_1.xsize (grid0.coords t) (1 : Fin 3) = min 12544 (100000 - t.val % 8 * 12544)
    ∧ win0_1.xsize (grid0.coords t) (2 : Fin 3) = 256
    ∧ win0_2.xsize (grid0.coords t) (0 : Fin 3) = 1
    ∧ win0_2.xsize (grid0.coords t) (1 : Fin 3) = 64
    ∧ win0_2.xsize (grid0.coords t) (2 : Fin 3) = min 12544 (100000 - t.val % 8 * 12544) :=
  (by decide +kernel : ∀ t : Fin grid0.N, _)

/-! ## Reading a point's blocks off the argument arrays -/

/-- Row `b`, feature `k` of the query block at point `t` is the query array's entry `(t / 8, b, k)`. -/
theorem query_read (c : Dev nD) (t : Fin cfg0.N) (b : Fin 64) (k : Fin 256) (hA : t.val / 8 < 6) :
    iblk m c 0 t (ix3 (0 : Fin 1) b k) = V m c main_arg0 (ix3 (⟨t.val / 8, hA⟩ : Fin 6) b k) := by
  obtain ⟨e0, e1, e2, -⟩ := idx_facts t
  show V m c main_arg0 (((cfg0.win 0).blk t).view.emb (ix3 (0 : Fin 1) b k)) = _
  refine congrArg (V m c main_arg0) (funext fun a => Fin.ext ?_)
  match a with
  | ⟨0, _⟩ => show win0_0.index t (0 : Fin 3) * 1 + 1 * 0 = t.val / 8; omega
  | ⟨1, _⟩ => show win0_0.index t (1 : Fin 3) * 64 + 1 * b.val = b.val; omega
  | ⟨2, _⟩ => show win0_0.index t (2 : Fin 3) * 256 + 1 * k.val = k.val; omega

/-- Row `j`, feature `k` of the memory block at point `t`, for a row `j` among the columns the result's tile keeps, is
    the memory array's entry `(t / 8, (t % 8) · 12544 + j, k)`: such a row is inside the array, so the fetch moved it and
    whatever filled the block past the array's end is not read. -/
theorem memory_read (c : Dev nD) (t : Fin cfg0.N) (d1 : (cfg0.win 1).block.Idx → Elt Ideal (cfg0.win 1).elt)
    (j : Fin 12544) (k : Fin 256) (hj : j.val < win0_2.xsize (grid0.coords t) (2 : Fin 3))
    (hA : t.val / 8 < 6) (hN : t.val % 8 * 12544 + j.val < 100000) :
    (cfg0.win 1).fill (cfg0.grid.coords t) d1 (iblk m c 1 t) (ix3 (0 : Fin 1) j k)
      = V m c main_arg1 (ix3 (⟨t.val / 8, hA⟩ : Fin 6) (⟨t.val % 8 * 12544 + j.val, hN⟩ : Fin 100000) k) := by
  obtain ⟨-, -, -, e0, e1, e2, -, -, -, x0, x1, x2, -, -, x22⟩ := idx_facts t
  have hmv : (cfg0.win 1).moved (cfg0.grid.coords t) (ix3 (0 : Fin 1) j k) = true := by
    rw [Window.moved_iff]
    intro a
    match a with
    | ⟨0, _⟩ => show 0 < win0_1.xsize (grid0.coords t) (0 : Fin 3); omega
    | ⟨1, _⟩ => show j.val < win0_1.xsize (grid0.coords t) (1 : Fin 3); omega
    | ⟨2, _⟩ => show k.val < win0_1.xsize (grid0.coords t) (2 : Fin 3); have := k.isLt; omega
  unfold Window.fill
  rw [dif_pos hmv]
  show V m c main_arg1 (((cfg0.win 1).blk t).view.emb _) = _
  refine congrArg (V m c main_arg1) (funext fun a => Fin.ext ?_)
  match a with
  | ⟨0, _⟩ => show win0_1.index t (0 : Fin 3) * 1 + 1 * 0 = t.val / 8; omega
  | ⟨1, _⟩ => show win0_1.index t (1 : Fin 3) * 12544 + 1 * j.val = t.val % 8 * 12544 + j.val; omega
  | ⟨2, _⟩ => show win0_1.index t (2 : Fin 3) * 256 + 1 * k.val = k.val; omega

/-- The similarity array of the two argument arrays as the region finds them. -/
def GG (c : Dev nD) : Buf (Elt Ideal) ((c : Thread nD τ).loc main_v0) :=
  Cert.Sims.G (V m c main_arg0) (V m c main_arg1)

/-- What point `t` writes back — the columns inside the array of what the body stores from the point's query block
    and its memory block, the latter filled out past the array's end with anything — is tile `t` of the similarity
    array. -/
theorem cut_pay (c : Dev nD) (t : Fin cfg0.N) (d1 : (cfg0.win 1).block.Idx → Elt Ideal (cfg0.win 1).elt) :
    (cfg0.win 2).cut (cfg0.grid.coords t)
        (k0_pay1 (F := Ideal) (iblk m c 0 t) ((cfg0.win 1).fill (cfg0.grid.coords t) d1 (iblk m c 1 t)))
      = ((cfg0.win 2).blk t).view.read (Elt Ideal) (GG m c) := by
  funext y
  obtain ⟨-, -, -, -, -, -, g0, g1, g2, -, -, -, z0, z1, z2⟩ := idx_facts t
  have ht : t.val < 48 := lt_of_lt_of_eq t.isLt N_0
  have y0 : (y 0).val < win0_2.xsize (grid0.coords t) (0 : Fin 3) := (y 0).isLt
  have y1 : (y 1).val < win0_2.xsize (grid0.coords t) (1 : Fin 3) := (y 1).isLt
  have y2 : (y 2).val < win0_2.xsize (grid0.coords t) (2 : Fin 3) := (y 2).isLt
  have hA : t.val / 8 < 6 := by omega
  have hb : (y 1).val < 64 := by omega
  have hj : (y 2).val < 12544 := by omega
  have hN : t.val % 8 * 12544 + (y 2).val < 100000 := by omega
  -- the kept part of the stored block sits at its own coordinates in the block
  have hx : (cfg0.win 2).xinj (cfg0.grid.coords t) y
      = ix3 (0 : Fin 1) (⟨(y 1).val, hb⟩ : Fin 64) (⟨(y 2).val, hj⟩ : Fin 12544) :=
    funext fun a => Fin.ext (by
      match a with
      | ⟨0, _⟩ => show (y 0).val = 0; omega
      | ⟨1, _⟩ => rfl
      | ⟨2, _⟩ => rfl)
  -- and in the result array at part `t / 8`, its own row, column `(t % 8) · 12544` plus its own
  have he : ((cfg0.win 2).blk t).view.emb y
      = ix3 (⟨t.val / 8, hA⟩ : Fin 6) (⟨(y 1).val, hb⟩ : Fin 64) (⟨t.val % 8 * 12544 + (y 2).val, hN⟩ : Fin 100000) :=
    funext fun a => Fin.ext (by
      match a with
      | ⟨0, _⟩ => show win0_2.index t (0 : Fin 3) * 1 + 1 * (y 0).val = t.val / 8; omega
      | ⟨1, _⟩ => show win0_2.index t (1 : Fin 3) * 64 + 1 * (y 1).val = (y 1).val; omega
      | ⟨2, _⟩ => show win0_2.index t (2 : Fin 3) * 12544 + 1 * (y 2).val = t.val % 8 * 12544 + (y 2).val; omega)
  show k0_pay1 (F := Ideal) (iblk m c 0 t) ((cfg0.win 1).fill (cfg0.grid.coords t) d1 (iblk m c 1 t))
        ((cfg0.win 2).xinj (cfg0.grid.coords t) y)
      = GG m c (((cfg0.win 2).blk t).view.emb y)
  rw [hx, he]
  refine (pay_apply (iblk m c 0 t) ((cfg0.win 1).fill (cfg0.grid.coords t) d1 (iblk m c 1 t)) _ _).trans ?_
  show _ = Cert.Sims.sim (V m c main_arg0) (V m c main_arg1) _ _ _
  unfold Cert.Sims.sim Cert.Sims.den
  refine Finset.sum_congr rfl fun k _ => ?_
  refine congrArg₂ (· * ·) (congrArg₂ Ideal.div (query_read m c t _ k hA) ?_) (memory_read m c t d1 _ k y2 hA hN)
  refine congrArg (fun s => max (Ideal.sqrt s) _) ?_
  exact Finset.sum_congr rfl fun k' _ => congrArg₂ (· * ·) (query_read m c t _ k' hA) (query_read m c t _ k' hA)

/-! ## The tiles cover the result -/

/-- An element of the result array is in point `t`'s tile iff on each axis its coordinate is at or past the tile's
    start and before the start plus the tile's extent there, cut at the array's end. -/
theorem mem_blk (t : Fin cfg0.N) (i : S6x64x100000.Idx) :
    i ∈ ((cfg0.win 2).blk t).view.set ↔ ∀ a : Fin 3, win0_2.index t a * S1x64x12544.size a ≤ (i a).val
      ∧ (i a).val < win0_2.index t a * S1x64x12544.size a + win0_2.xsize (grid0.coords t) a := by
  show i ∈ ((View.whole main_v0).slice (win0_2.rect t)).set ↔ _
  rw [View.set_slice_whole, Rect.mem_set_unit]
  exact Iff.rfl

/-- Every element of the result array is in the block of some point, and every point writes its block back. -/
theorem cover (i : S6x64x100000.Idx) :
    ∃ t : Fin cfg0.N, (cfg0.win 2).flush t = true ∧ i ∈ ((cfg0.win 2).blk t).view.set := by
  have hi0 : (i 0).val < 6 := (i 0).isLt
  have hi1 : (i 1).val < 64 := (i 1).isLt
  have hi2 : (i 2).val < 100000 := (i 2).isLt
  -- the point of part `i 0` and of the column tile that holds column `i 2`
  obtain ⟨t, ht⟩ : ∃ t : Fin cfg0.N, t.val = (i 0).val * 8 + (i 2).val / 12544 :=
    ⟨⟨(i 0).val * 8 + (i 2).val / 12544, by rw [show cfg0.N = 48 from N_0]; omega⟩, rfl⟩
  obtain ⟨-, -, -, -, -, -, g0, g1, g2, -, -, -, z0, z1, z2⟩ := idx_facts t
  refine ⟨t, flush0_2 t, ?_⟩
  rw [mem_blk]
  intro a
  match a with
  | ⟨0, _⟩ =>
    show win0_2.index t (0 : Fin 3) * 1 ≤ (i 0).val
      ∧ (i 0).val < win0_2.index t (0 : Fin 3) * 1 + win0_2.xsize (grid0.coords t) (0 : Fin 3)
    omega
  | ⟨1, _⟩ =>
    show win0_2.index t (1 : Fin 3) * 64 ≤ (i 1).val
      ∧ (i 1).val < win0_2.index t (1 : Fin 3) * 64 + win0_2.xsize (grid0.coords t) (1 : Fin 3)
    omega
  | ⟨2, _⟩ =>
    show win0_2.index t (2 : Fin 3) * 12544 ≤ (i 2).val
      ∧ (i 2).val < win0_2.index t (2 : Fin 3) * 12544 + win0_2.xsize (grid0.coords t) (2 : Fin 3)
    omega

end Cert.KernelIdeal.Blocks

end
-- ==== Proof.IRun.lean ====
/-
  The similarity kernel's run over the extended reals, with every array named.

  At each grid point the body finds the point's query block in the first staging buffer, the point's memory block
  in the second — filled out past the array's end, at the last tile, with words nothing names — and anything in the
  third; it leaves the first two as they were and the block of similarities in the third. The columns of that block
  that lie inside the result array do not depend on the unnamed words, and are the point's tile of the similarity
  function of the two argument arrays; they are what is written back. The 48 tiles cover the result array, so after
  the run it holds the similarity function of the arguments, and the arguments are unchanged.
-/
import proofs.«112958_g3410204033328_cont_8to1_b_1400_17_alg».proof.Proof.IBody
import proofs.«112958_g3410204033328_cont_8to1_b_1400_17_alg».proof.Proof.Blocks
import Idealize.ShloMosaic.Lib.Pipeline.Value
import Idealize.ShloMosaic.Lib.Pipeline.Frame

set_option maxRecDepth 16384

noncomputable section

namespace Cert.KernelIdeal.Run

open Cert.KernelIdeal Cert.KernelIdeal.Gen Cert.KernelIdeal.Body Cert.KernelIdeal.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## What each staging buffer holds after the body -/

/-- The arrays as the region finds them; after the body at point `t` the query buffer at its block, the memory
    buffer at its block (stated on the rows inside the array; the filler is never read), the result buffer at the
    point's tile of the similarity array (stated on the columns inside the array). -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, h⟩ => (cfg0.win 1).fill (cfg0.grid.coords t) (Pipeline.Dat.unnamed (cfg := cfg0) ⟨1, h⟩ t) (iblk m c 1 t)
    | ⟨2, h⟩ => (cfg0.win 2).fill (cfg0.grid.coords t) (Pipeline.Dat.unnamed (cfg := cfg0) ⟨2, h⟩ t)
        (((cfg0.win 2).blk t).view.read (Elt Ideal) (GG m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) :
    (dats m 0 c).after 1 t = (cfg0.win 1).fill (cfg0.grid.coords t) (Pipeline.Dat.unnamed (cfg := cfg0) 1 t) (iblk m c 1 t) := by
  dsimp only [dats]; rfl
theorem after0_2 (c : Dev nD) (t : Fin cfg0.N) :
    (dats m 0 c).after 2 t = (cfg0.win 2).fill (cfg0.grid.coords t) (Pipeline.Dat.unnamed (cfg := cfg0) 2 t)
      (((cfg0.win 2).blk t).view.read (Elt Ideal) (GG m c)) := by
  dsimp only [dats]; rfl

/-- The query buffer holds the point's query block at every point, fetched there or not. -/
theorem before0_0 (c : Dev nD) (t : Fin cfg0.N) (d) : (dats m 0 c).before 0 t d = iblk m c 0 t :=
  before0_0_of m (dats m 0 c) (A_eq m c 0) (after0_0 m c) t d

/-- The memory buffer is fetched at every point: it holds the point's memory block on the rows inside the array and
    what the buffer held (`d`) past them. -/
theorem before0_1 (c : Dev nD) (t : Fin cfg0.N) (d) :
    (dats m 0 c).before 1 t d = (cfg0.win 1).fill (cfg0.grid.coords t) d (iblk m c 1 t) := by
  unfold Dat.before; rw [if_pos (fetch0_1 t)]; unfold Dat.fetched Dat.blockOf iblk; rw [A_eq]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t)))))

/-- The body at any point: the result buffer ends at the stored value of the query block and the filled-out memory
    block; its columns inside the array are the point's tile of the similarity array whatever filled the memory
    block out, so the buffer is that tile filled out with its own remaining columns. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, Window.cut_fill, Window.cut_fill]
  iintro ⟨HΦ, Ho, ⟨%d0, H0⟩, ⟨%d1, H1⟩, ⟨%d2, H2⟩⟩
  iapply (sound_kernel c Set.univ (grid0.coords t) _ _ _ _ _ _ (iblk m c 0 t)
    ((cfg0.win 1).fill (cfg0.grid.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexists d1; iexact H1
  iexists (k0_pay1 (F := Ideal) (iblk m c 0 t) ((cfg0.win 1).fill (cfg0.grid.coords t) d1 (iblk m c 1 t)))
  rw [← cut_pay m c t d1, Window.fill_cut]
  iexact H2

theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of @main terminates, and every final state has every array of the pipeline at what
    the write-backs leave and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- What point `t` writes back is its tile of the similarity array. -/
theorem flushed2 (c : Dev nD) (t : Fin cfg0.N) :
    (dats m 0 c).flushed 2 t = ((cfg0.win 2).blk t).view.read (Elt Ideal) (GG m c) := by
  show (cfg0.win 2).cut (cfg0.grid.coords t) ((dats m 0 c).after 2 t) = _
  rw [after0_2]; exact Window.cut_fill _ _ _ _

/-- The tiles cover the result array: after the run it is the similarity array. -/
theorem final2 (c : Dev nD) : (dats m 0 c).arrAt 2 cfg0.N = GG m c :=
  (dats m 0 c).arrAt_eq_of_cover 2 (GG m c) (fun t _ => flushed2 m c t) cover

/-- The run with the result named: the result array ends at the similarity function of the argument arrays, which
    end as they began. -/
theorem run : θ_run defs (onTc (τ := τ) (main (F := Ideal))) ⟨m, fun _ => 0, ρ⟩ (fun r => ∀ c : Dev nD,
      r.2.mem ((c.tc : Thread nD τ).loc main_v0) = GG m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (final2 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

/-- The frame: the run with the result dropped. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run m ρ)

end Cert.KernelIdeal.Run

end
-- ==== Proof.RefIsG.lean ====
/-
  The reference's result, read one operation at a time, is the similarity function of its two arguments.
-/
import proofs.«112958_g3410204033328_cont_8to1_b_1400_17_alg».proof.Proof.Gen.ReferenceIdeal.Run
import proofs.«112958_g3410204033328_cont_8to1_b_1400_17_alg».proof.Proof.Gen.ReferenceIdeal.Read
import proofs.«112958_g3410204033328_cont_8to1_b_1400_17_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The row reduction: the zero initial value plus the sum over the 256 features of the squares of query
    row `(a, b)` is the sum of squares. -/
theorem sumsq_eq (x0 : (⟨S6x64x256, .f32⟩ : BufTy).Contents (Elt Ideal)) (a : Fin 6) (b : Fin 64) :
    val_main_call0_v1 (F := Ideal) x0 (ix2 a b) = ∑ k : Fin 256, x0 (ix3 a b k) * x0 (ix3 a b k) := by
  rw [val_main_call0_v1_apply, val_main_call0_cst_apply, Ideal.ofBits_def, Ideal.ofBits_zero_f32, zero_add]
  refine Finset.sum_congr rfl fun k _ => ?_
  rw [val_main_call0_v0_apply, Ideal.mulf_def]
  have e : idx_main_call0_v1 (ix2 a b) k = ix3 a b k :=
    funext fun c => Fin.ext (by match c with | ⟨0, _⟩ => rfl | ⟨1, _⟩ => rfl | ⟨2, _⟩ => rfl)
  rw [e]

/-- The clamped norm: at every index `(a, b, 0)` of the 6×64×1 array, the maximum of the square root of the
    sum of squares and the broadcast constant is `den x a b`. -/
theorem clamp_eq (x0 : (⟨S6x64x256, .f32⟩ : BufTy).Contents (Elt Ideal)) (a : Fin 6) (b : Fin 64) (c : Fin 1) :
    val_main_v2 (F := Ideal) x0 (ix3 a b c) = Cert.Sims.den x0 a b := by
  rw [val_main_v2_apply, Ideal.maximumf_def, val_main_v0_apply, Ideal.hostUnary_sqrt_def, val_main_call0_v2_apply,
    val_main_v1_apply, val_main_cst_apply, Ideal.ofBits_def]
  have e : idx_main_call0_v2 (ix3 a b c) = ix2 a b :=
    funext fun d => Fin.ext (by match d with | ⟨0, _⟩ => rfl | ⟨1, _⟩ => rfl)
  rw [e, sumsq_eq]
  rfl

theorem ref_eq_G (x0 : (⟨S6x64x256, .f32⟩ : BufTy).Contents (Elt Ideal)) (x1 : (⟨S6x100000x256, .f32⟩ : BufTy).Contents (Elt Ideal)) :
    val_main_v5 (F := Ideal) x0 x1 = Cert.Sims.G x0 x1 := by
  funext i
  -- name the three coordinates of the result index
  obtain ⟨a, b, n, rfl⟩ : ∃ (a : Fin 6) (b : Fin 64) (n : Fin 100000), i = ix3 a b n :=
    ⟨i 0, i 1, i 2, eq_ix3 i⟩
  rw [val_main_v5_apply]
  show _ = Cert.Sims.sim x0 x1 a b n
  unfold Cert.Sims.sim
  refine Finset.sum_congr rfl fun k _ => ?_
  -- the left factor is the query element over the clamped norm of its row; the right factor is the memory element
  have el : lidx_main_v5 (ix3 a b n) k = ix3 a b k :=
    funext fun d => Fin.ext (by match d with | ⟨0, _⟩ => rfl | ⟨1, _⟩ => rfl | ⟨2, _⟩ => rfl)
  have er : ridx_main_v5 (ix3 a b n) k = ix3 a n k :=
    funext fun d => Fin.ext (by match d with | ⟨0, _⟩ => rfl | ⟨1, _⟩ => rfl | ⟨2, _⟩ => rfl)
  have e3 : idx_main_v3 (ix3 a b k) = ix3 a b (0 : Fin 1) :=
    funext fun d => Fin.ext (by match d with | ⟨0, _⟩ => rfl | ⟨1, _⟩ => rfl | ⟨2, _⟩ => rfl)
  rw [el, er, val_main_v4_apply, Ideal.hostDivf_def, val_main_v3_apply, e3, clamp_eq]

end Cert.ReferenceIdeal.RefValue

end
-- ==== Proof.lean ====
/-
  The certificate of the multi-part cosine-similarity kernel against its reference.

  Both programs compute, for each of six parts, the inner products of 64 query rows — each divided by its Euclidean
  norm clamped below by a small constant — with the 100000 rows of that part's memory bank. The kernel does it tile by
  tile on a 6 × 8 grid, 12544 memory rows at a time (the last tile of each part overhangs the bank and is cut at its
  end); the reference normalises the queries and contracts them with the whole bank at once. Over the extended reals
  both are the same finite sums of the same products, so the results agree element by element, with no appeal to the
  inputs being finite.

  The five claims: each program runs to the end without a fault and leaves its arguments unchanged (the word-level
  kernel's frame says nothing of the result array, whose columns computed from the cut tile's unnamed words are never
  written back); the idealized kernel is the kernel's own text read over the extended reals (nothing was rewritten);
  and the two idealized programs end with equal results.
-/
import proofs.«112958_g3410204033328_cont_8to1_b_1400_17_alg».proof.Defs
import proofs.«112958_g3410204033328_cont_8to1_b_1400_17_alg».proof.Proof.Gen.Kernel
import proofs.«112958_g3410204033328_cont_8to1_b_1400_17_alg».proof.Proof.Gen.KernelIdeal
import proofs.«112958_g3410204033328_cont_8to1_b_1400_17_alg».proof.Proof.Gen.ReferenceIdeal
import proofs.«112958_g3410204033328_cont_8to1_b_1400_17_alg».proof.Proof.Gen.Pre_finite_inputs
import proofs.«112958_g3410204033328_cont_8to1_b_1400_17_alg».proof.Proof.Gen.ReferenceIdeal.Run
import proofs.«112958_g3410204033328_cont_8to1_b_1400_17_alg».proof.Proof.Gen.ReferenceIdeal.Read
import proofs.«112958_g3410204033328_cont_8to1_b_1400_17_alg».proof.Proof.KFrame
import proofs.«112958_g3410204033328_cont_8to1_b_1400_17_alg».proof.Proof.IRun
import proofs.«112958_g3410204033328_cont_8to1_b_1400_17_alg».proof.Proof.RefIsG
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.FrameProof.frame (F := Bits) m ρ

/-- So does the idealized kernel: its run with the result dropped. -/
theorem frame_ki : Cert.frame_KernelIdeal := fun m ρ _ => Cert.KernelIdeal.Run.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the similarity function of the (agreeing) arguments in their result arrays. -/
theorem algebraic : Cert.algebraic_KernelIdeal_ReferenceIdeal := by
  intro m ρ m' ρ' _ hagree
  refine ⟨fun c => Cert.KernelIdeal.Blocks.GG m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_eq_G, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
